-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel

variable [Facts]

def fn {F : FTy → Type} [FloatOps F] (main_arg0 : FVec F S4x4096x1024 .f32) (main_arg1 : FVec F S4x4096x1024 .f32) (main_arg2 : FVec F S4x4096x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  main_v13
-- ==== Kernel.lean ====
abbrev S4x4096x1024 : Shape := ⟨3, ![4, 4096, 1024]⟩
abbrev S1x1024x1024 : Shape := ⟨3, ![1, 1024, 1024]⟩
abbrev S1x1024x128 : Shape := ⟨3, ![1, 1024, 128]⟩
abbrev S1024x128 : Shape := ⟨2, ![1024, 128]⟩
abbrev S8x128x128 : Shape := ⟨3, ![8, 128, 128]⟩
abbrev S8x128 : Shape := ⟨2, ![8, 128]⟩
abbrev S8x128x1 : Shape := ⟨3, ![8, 128, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x1024_S1x1024x128_0_0_0 : ∀ a, (![0, 0, 0] : Fin 3 → Nat) a + S1x1024x128.size a ≤ S1x1024x1024.size a
  h_S1x1024x128 : 0 < S1x1024x128.numel
  shapeCasts_S1x1024x128_S1024x128 : S1x1024x128.ShapeCasts S1024x128
  shapeCasts_S1024x128_S8x128x128 : S1024x128.ShapeCasts S8x128x128
  reduces_S8x128x128_S8x128 : S8x128x128.Reduces [2] S8x128
  shapeCasts_S8x128_S8x128x1 : S8x128.ShapeCasts S8x128x1
  broadcasts_S8x128x1_S8x128x128 : S8x128x1.Broadcasts S8x128x128
  shapeCasts_S8x128x128_S1024x128 : S8x128x128.ShapeCasts S1024x128
  shapeCasts_S1024x128_S1x1024x128 : S1024x128.ShapeCasts S1x1024x128
  inb_S1x1024x1024_S1x1024x128_0_0_128 : ∀ a, (![0, 0, 128] : Fin 3 → Nat) a + S1x1024x128.size a ≤ S1x1024x1024.size a
  inb_S1x1024x1024_S1x1024x128_0_0_256 : ∀ a, (![0, 0, 256] : Fin 3 → Nat) a + S1x1024x128.size a ≤ S1x1024x1024.size a
  inb_S1x1024x1024_S1x1024x128_0_0_384 : ∀ a, (![0, 0, 384] : Fin 3 → Nat) a + S1x1024x128.size a ≤ S1x1024x1024.size a
  inb_S1x1024x1024_S1x1024x128_0_0_512 : ∀ a, (![0, 0, 512] : Fin 3 → Nat) a + S1x1024x128.size a ≤ S1x1024x1024.size a
  inb_S1x1024x1024_S1x1024x128_0_0_640 : ∀ a, (![0, 0, 640] : Fin 3 → Nat) a + S1x1024x128.size a ≤ S1x1024x1024.size a
  inb_S1x1024x1024_S1x1024x128_0_0_768 : ∀ a, (![0, 0, 768] : Fin 3 → Nat) a + S1x1024x128.size a ≤ S1x1024x1024.size a
  inb_S1x1024x1024_S1x1024x128_0_0_896 : ∀ a, (![0, 0, 896] : Fin 3 → Nat) a + S1x1024x128.size a ≤ S1x1024x1024.size a
  dot_S8x128x128_S8x128x128_S8x128x128_2_2_1_1_0_0_wf : DotDims.WF S8x128x128 S8x128x128 S8x128x128 [2] [2] [1] [1] [0] [0]
  dot_S8x128x128_S8x128x128_S8x128x128_2_1_1_2_0_0_wf : DotDims.WF S8x128x128 S8x128x128 S8x128x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S4x4096x1024.size a
  hwx0_1 : ∀ i : grid0.Coords, EltTy.bits .f32 = 32 ∨ (Rect.block (s := S4x4096x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x4096x1024.size a
  hwx0_2 : ∀ i : grid0.Coords, EltTy.bits .f32 = 32 ∨ (Rect.block (s := S4x4096x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x4096x1024.size a
  hwx0_3 : ∀ i : grid0.Coords, EltTy.bits .f32 = 32 ∨ (Rect.block (s := S4x4096x1024) S1x1024x1024.size (cc0_transform_3 i) (hinb0_3 i)).WholeWords (EltTy.packing .f32)

variable [Facts₀]

def dot_S8x128x128_S8x128x128_S8x128x128_2_2_1_1_0_0 : DotDims S8x128x128 S8x128x128 S8x128x128 where
  lhsContracting := [2]
  rhsContracting := [2]
  lhsNonContracting := [1]
  rhsNonContracting := [1]
  lhsBatch := [0]
  rhsBatch := [0]
  wf := dot_S8x128x128_S8x128x128_S8x128x128_2_2_1_1_0_0_wf
def dot_S8x128x128_S8x128x128_S8x128x128_2_1_1_2_0_0 : DotDims S8x128x128 S8x128x128 S8x128x128 where
  lhsContracting := [2]
  rhsContracting := [1]
  lhsNonContracting := [1]
  rhsNonContracting := [2]
  lhsBatch := [0]
  rhsBatch := [0]
  wf := dot_S8x128x128_S8x128x128_S8x128x128_2_1_1_2_0_0_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4x4096x8x128 : Shape := ⟨4, ![4, 4096, 8, 128]⟩
abbrev S4x8x4096x128 : Shape := ⟨4, ![4, 8, 4096, 128]⟩
abbrev S4x8x32x128x128 : Shape := ⟨5, ![4, 8, 32, 128, 128]⟩
abbrev S_ : Shape := ⟨0, ![]⟩
abbrev S4x8x32x128 : Shape := ⟨4, ![4, 8, 32, 128]⟩
abbrev S4x8x32x128x1 : Shape := ⟨5, ![4, 8, 32, 128, 1]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x8x128, .f32⟩
  | .hbm, ⟨4, _⟩ => ⟨S4x8x4096x128, .f32⟩
  | .hbm, ⟨5, _⟩ => ⟨S4x8x32x128x128, .f32⟩
  | .hbm, ⟨6, _⟩ => ⟨S4x4096x8x128, .f32⟩
  | .hbm, ⟨7, _⟩ => ⟨S4x8x4096x128, .f32⟩
  | .hbm, ⟨8, _⟩ => ⟨S4x8x32x128x128, .f32⟩
  | .hbm, ⟨9, _⟩ => ⟨S4x4096x8x128, .f32⟩
  | .hbm, ⟨10, _⟩ => ⟨S4x8x4096x128, .f32⟩
  | .hbm, ⟨11, _⟩ => ⟨S4x8x32x128x128, .f32⟩
  | .hbm, ⟨12, _⟩ => ⟨S4x8x32x128x128, .f32⟩
  | .hbm, ⟨13, _⟩ => ⟨S_, .f32⟩
  | .hbm, ⟨14, _⟩ => ⟨S4x8x32x128x128, .f32⟩
  | .hbm, ⟨15, _⟩ => ⟨S4x8x32x128x128, .f32⟩
  | .hbm, ⟨16, _⟩ => ⟨S_, .f32⟩
  | .hbm, ⟨17, _⟩ => ⟨S4x8x32x128, .f32⟩
  | .hbm, ⟨18, _⟩ => ⟨S_, .f32⟩
  | .hbm, ⟨19, _⟩ => ⟨S4x8x32x128, .f32⟩
  | .hbm, ⟨20, _⟩ => ⟨S4x8x32x128, .f32⟩
  | .hbm, ⟨21, _⟩ => ⟨S4x8x32x128x1, .f32⟩
  | .hbm, ⟨22, _⟩ => ⟨S4x8x32x128x128, .f32⟩
  | .hbm, ⟨23, _⟩ => ⟨S4x8x32x128x128, .f32⟩
  | .hbm, ⟨24, _⟩ => ⟨S4x8x32x128x128, .f32⟩
  | .hbm, ⟨25, _⟩ => ⟨S_, .f32⟩
  | .hbm, ⟨26, _⟩ => ⟨S4x8x32x128, .f32⟩
  | .hbm, ⟨27, _⟩ => ⟨S4x8x32x128x1, .f32⟩
  | .hbm, ⟨28, _⟩ => ⟨S4x8x32x128x128, .f32⟩
  | .hbm, ⟨29, _⟩ => ⟨S4x8x32x128x128, .f32⟩
  | .hbm, ⟨30, _⟩ => ⟨S4x8x32x128x128, .f32⟩
  | .hbm, ⟨31, _⟩ => ⟨S4x8x4096x128, .f32⟩
  | .hbm, ⟨32, _⟩ => ⟨S4x4096x8x128, .f32⟩
  | .hbm, ⟨33, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  shapeCasts_S4x4096x1024_S4x4096x8x128 : S4x4096x1024.ShapeCasts S4x4096x8x128
  transposes_S4x4096x8x128_S4x8x4096x128_0_2_1_3 : S4x4096x8x128.Transposes [0, 2, 1, 3] S4x8x4096x128
  shapeCasts_S4x8x4096x128_S4x8x32x128x128 : S4x8x4096x128.ShapeCasts S4x8x32x128x128
  bcast_S_S4x8x32x128x128 : S_.BroadcastsInDim S4x8x32x128x128 (![] : Fin 0 → Fin S4x8x32x128x128.rank)
  reducesTo_S4x8x32x128x128_S4x8x32x128_d4 : S4x8x32x128x128.ReducesTo [4] S4x8x32x128
  h_S_ : 0 < S_.numel
  bcast_S_S4x8x32x128 : S_.BroadcastsInDim S4x8x32x128 (![] : Fin 0 → Fin S4x8x32x128.rank)
  bcast_S4x8x32x128_S4x8x32x128x1_0_1_2_3 : S4x8x32x128.BroadcastsInDim S4x8x32x128x1 (![0, 1, 2, 3] : Fin 4 → Fin S4x8x32x128x1.rank)
  bcast_S4x8x32x128x1_S4x8x32x128x128_0_1_2_3_4 : S4x8x32x128x1.BroadcastsInDim S4x8x32x128x128 (![0, 1, 2, 3, 4] : Fin 5 → Fin S4x8x32x128x128.rank)
  shapeCasts_S4x8x32x128x128_S4x8x4096x128 : S4x8x32x128x128.ShapeCasts S4x8x4096x128
  transposes_S4x8x4096x128_S4x4096x8x128_0_2_1_3 : S4x8x4096x128.Transposes [0, 2, 1, 3] S4x4096x8x128
  shapeCasts_S4x4096x8x128_S4x4096x1024 : S4x4096x8x128.ShapeCasts S4x4096x1024
  dot_S4x8x32x128x128_S4x8x32x128x128_S4x8x32x128x128_4_4_3_3_012_012_wf : DotDims.WF S4x8x32x128x128 S4x8x32x128x128 S4x8x32x128x128 [4] [4] [3] [3] [0, 1, 2] [0, 1, 2]
  dot_S4x8x32x128x128_S4x8x32x128x128_S4x8x32x128x128_4_3_3_4_012_012_wf : DotDims.WF S4x8x32x128x128 S4x8x32x128x128 S4x8x32x128x128 [4] [3] [3] [4] [0, 1, 2] [0, 1, 2]

variable [Facts₀]

def dot_S4x8x32x128x128_S4x8x32x128x128_S4x8x32x128x128_4_4_3_3_012_012 : DotDims S4x8x32x128x128 S4x8x32x128x128 S4x8x32x128x128 where
  lhsContracting := [4]
  rhsContracting := [4]
  lhsNonContracting := [3]
  rhsNonContracting := [3]
  lhsBatch := [0, 1, 2]
  rhsBatch := [0, 1, 2]
  wf := dot_S4x8x32x128x128_S4x8x32x128x128_S4x8x32x128x128_4_4_3_3_012_012_wf
def dot_S4x8x32x128x128_S4x8x32x128x128_S4x8x32x128x128_4_3_3_4_012_012 : DotDims S4x8x32x128x128 S4x8x32x128x128 S4x8x32x128x128 where
  lhsContracting := [4]
  rhsContracting := [3]
  lhsNonContracting := [3]
  rhsNonContracting := [4]
  lhsBatch := [0, 1, 2]
  rhsBatch := [0, 1, 2]
  wf := dot_S4x8x32x128x128_S4x8x32x128x128_S4x8x32x128x128_4_3_3_4_012_012_wf

class Facts : Prop extends Facts₀ where

variable [Facts]
-- ==== Proof.TileOps.lean ====
/-
  One head's tile operations read at an index, at the ideal values.

  A head's payload works on three [8, 128, 128] tiles (block n, row r, feature or key position) cut out of
  [1, 1024, 128] slabs: slab row 128·n + r is tile entry (n, r). Read at an index, over the extended reals:
    * the two reshapes slab → tile and tile → slab move an entry between (0, 128·n + r, t) and (n, r, t);
    * the product "n q d, n k d → n q k" into a zero accumulator is ∑ t, a (n, r, t) · b (n, j, t);
    * the product "n q k, n k d → n q d" into a zero accumulator is ∑ j, w (n, r, j) · c (n, j, d);
    * the row maximum, kept as a column and broadcast back, is the maximum over j' of s (n, r, j') from the
      accumulator's value; the row sum likewise is ∑ j', s (n, r, j').
-/
import proofs.«153206_j67757404062393_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Tile

open Cert.KernelIdeal Cert.KernelIdeal.Gen

/-- Slab row `128·n + r`. -/
abbrev row (n : Fin 8) (r : Fin 128) : Fin 1024 := ⟨n.val * 128 + r.val, by have := n.isLt; have := r.isLt; omega⟩

/-- Slab → tile: entry (n, r, t) of the tile is entry (0, 128·n + r, t) of the slab. -/
theorem toTile_apply (x : FVec Ideal S1x1024x128 .f32) (h1 : S1x1024x128.ShapeCasts S1024x128) (h2 : S1024x128.ShapeCasts S8x128x128)
    (n : Fin 8) (r t : Fin 128) :
    shapeCast S8x128x128 (shapeCast S1024x128 x h1) h2 (ix3 n r t) = x (ix3 (0 : Fin 1) (row n r) t) := by
  rw [shapeCast_apply _ h2 (ix3 n r t) (ix2 (row n r) t) (by
    rewrite [Shape.rowMajor_val_two, Shape.rowMajor_val_three]
    show (n.val * 128 + r.val) * 128 + t.val = (n.val * 128 + r.val) * 128 + t.val; rfl)]
  exact shapeCast_apply x h1 (ix2 (row n r) t) (ix3 (0 : Fin 1) (row n r) t) (by
    rewrite [Shape.rowMajor_val_three, Shape.rowMajor_val_two]
    show (0 * 1024 + (n.val * 128 + r.val)) * 128 + t.val = (n.val * 128 + r.val) * 128 + t.val; omega)

/-- Tile → slab: entry (0, ρ, d) of the slab is entry (ρ / 128, ρ % 128, d) of the tile. -/
theorem toSlab_apply (y : FVec Ideal S8x128x128 .f32) (h3 : S8x128x128.ShapeCasts S1024x128) (h4 : S1024x128.ShapeCasts S1x1024x128)
    (ρ : Fin 1024) (d : Fin 128) :
    shapeCast S1x1024x128 (shapeCast S1024x128 y h3) h4 (ix3 (0 : Fin 1) ρ d)
      = y (ix3 (⟨ρ.val / 128, by have := ρ.isLt; omega⟩ : Fin 8) (⟨ρ.val % 128, by omega⟩ : Fin 128) d) := by
  rw [shapeCast_apply _ h4 (ix3 (0 : Fin 1) ρ d) (ix2 ρ d) (by
    rewrite [Shape.rowMajor_val_two, Shape.rowMajor_val_three]
    show ρ.val * 128 + d.val = (0 * 1024 + ρ.val) * 128 + d.val; omega)]
  exact shapeCast_apply y h3 (ix2 ρ d) _ (by
    rewrite [Shape.rowMajor_val_three, Shape.rowMajor_val_two]
    show (ρ.val / 128 * 128 + ρ.val % 128) * 128 + d.val = ρ.val * 128 + d.val; omega)

/-! ### Where the two products read their operands

For the product "n q d, n k d → n q k" (block axis shared, last axes contracted) and the product
"n q k, n k d → n q d" (left's last axis against right's middle axis): each operand index, coordinate by coordinate,
from the output index and the contraction index. -/

theorem qk_lhs_0 (i : S8x128x128.Idx) (q : dot_S8x128x128_S8x128x128_S8x128x128_2_2_1_1_0_0.contr.Idx) :
    (dot_S8x128x128_S8x128x128_S8x128x128_2_2_1_1_0_0.lhsIdx i q 0).val = (i 0).val := by
  unfold DotDims.lhsIdx
  rw [dif_pos (show (0 : Fin S8x128x128.rank) ∈ dot_S8x128x128_S8x128x128_S8x128x128_2_2_1_1_0_0.lhsBatch by decide)]
  rfl
theorem qk_lhs_1 (i : S8x128x128.Idx) (q : dot_S8x128x128_S8x128x128_S8x128x128_2_2_1_1_0_0.contr.Idx) :
    (dot_S8x128x128_S8x128x128_S8x128x128_2_2_1_1_0_0.lhsIdx i q 1).val = (i 1).val := by
  unfold DotDims.lhsIdx
  rw [dif_neg (show ¬(1 : Fin S8x128x128.rank) ∈ dot_S8x128x128_S8x128x128_S8x128x128_2_2_1_1_0_0.lhsBatch by decide), dif_pos (show (1 : Fin S8x128x128.rank) ∈ dot_S8x128x128_S8x128x128_S8x128x128_2_2_1_1_0_0.lhsNonContracting by decide)]
  rfl
theorem qk_lhs_2 (i : S8x128x128.Idx) (q : dot_S8x128x128_S8x128x128_S8x128x128_2_2_1_1_0_0.contr.Idx) :
    (dot_S8x128x128_S8x128x128_S8x128x128_2_2_1_1_0_0.lhsIdx i q 2).val = (q ⟨0, by decide⟩).val :=
  dot_S8x128x128_S8x128x128_S8x128x128_2_2_1_1_0_0.lhsIdx_val_of_single rfl i q
theorem qk_rhs_0 (i : S8x128x128.Idx) (q : dot_S8x128x128_S8x128x128_S8x128x128_2_2_1_1_0_0.contr.Idx) :
    (dot_S8x128x128_S8x128x128_S8x128x128_2_2_1_1_0_0.rhsIdx i q 0).val = (i 0).val := by
  unfold DotDims.rhsIdx
  rw [dif_pos (show (0 : Fin S8x128x128.rank) ∈ dot_S8x128x128_S8x128x128_S8x128x128_2_2_1_1_0_0.rhsBatch by decide)]
  rfl
theorem qk_rhs_1 (i : S8x128x128.Idx) (q : dot_S8x128x128_S8x128x128_S8x128x128_2_2_1_1_0_0.contr.Idx) :
    (dot_S8x128x128_S8x128x128_S8x128x128_2_2_1_1_0_0.rhsIdx i q 1).val = (i 2).val := by
  unfold DotDims.rhsIdx
  rw [dif_neg (show ¬(1 : Fin S8x128x128.rank) ∈ dot_S8x128x128_S8x128x128_S8x128x128_2_2_1_1_0_0.rhsBatch by decide), dif_pos (show (1 : Fin S8x128x128.rank) ∈ dot_S8x128x128_S8x128x128_S8x128x128_2_2_1_1_0_0.rhsNonContracting by decide)]
  rfl
theorem qk_rhs_2 (i : S8x128x128.Idx) (q : dot_S8x128x128_S8x128x128_S8x128x128_2_2_1_1_0_0.contr.Idx) :
    (dot_S8x128x128_S8x128x128_S8x128x128_2_2_1_1_0_0.rhsIdx i q 2).val = (q ⟨0, by decide⟩).val :=
  dot_S8x128x128_S8x128x128_S8x128x128_2_2_1_1_0_0.rhsIdx_val_of_single rfl i q

theorem pv_lhs_0 (i : S8x128x128.Idx) (q : dot_S8x128x128_S8x128x128_S8x128x128_2_1_1_2_0_0.contr.Idx) :
    (dot_S8x128x128_S8x128x128_S8x128x128_2_1_1_2_0_0.lhsIdx i q 0).val = (i 0).val := by
  unfold DotDims.lhsIdx
  rw [dif_pos (show (0 : Fin S8x128x128.rank) ∈ dot_S8x128x128_S8x128x128_S8x128x128_2_1_1_2_0_0.lhsBatch by decide)]
  rfl
theorem pv_lhs_1 (i : S8x128x128.Idx) (q : dot_S8x128x128_S8x128x128_S8x128x128_2_1_1_2_0_0.contr.Idx) :
    (dot_S8x128x128_S8x128x128_S8x128x128_2_1_1_2_0_0.lhsIdx i q 1).val = (i 1).val := by
  unfold DotDims.lhsIdx
  rw [dif_neg (show ¬(1 : Fin S8x128x128.rank) ∈ dot_S8x128x128_S8x128x128_S8x128x128_2_1_1_2_0_0.lhsBatch by decide), dif_pos (show (1 : Fin S8x128x128.rank) ∈ dot_S8x128x128_S8x128x128_S8x128x128_2_1_1_2_0_0.lhsNonContracting by decide)]
  rfl
theorem pv_lhs_2 (i : S8x128x128.Idx) (q : dot_S8x128x128_S8x128x128_S8x128x128_2_1_1_2_0_0.contr.Idx) :
    (dot_S8x128x128_S8x128x128_S8x128x128_2_1_1_2_0_0.lhsIdx i q 2).val = (q ⟨0, by decide⟩).val :=
  dot_S8x128x128_S8x128x128_S8x128x128_2_1_1_2_0_0.lhsIdx_val_of_single rfl i q
theorem pv_rhs_0 (i : S8x128x128.Idx) (q : dot_S8x128x128_S8x128x128_S8x128x128_2_1_1_2_0_0.contr.Idx) :
    (dot_S8x128x128_S8x128x128_S8x128x128_2_1_1_2_0_0.rhsIdx i q 0).val = (i 0).val := by
  unfold DotDims.rhsIdx
  rw [dif_pos (show (0 : Fin S8x128x128.rank) ∈ dot_S8x128x128_S8x128x128_S8x128x128_2_1_1_2_0_0.rhsBatch by decide)]
  rfl
theorem pv_rhs_1 (i : S8x128x128.Idx) (q : dot_S8x128x128_S8x128x128_S8x128x128_2_1_1_2_0_0.contr.Idx) :
    (dot_S8x128x128_S8x128x128_S8x128x128_2_1_1_2_0_0.rhsIdx i q 1).val = (q ⟨0, by decide⟩).val :=
  dot_S8x128x128_S8x128x128_S8x128x128_2_1_1_2_0_0.rhsIdx_val_of_single rfl i q
theorem pv_rhs_2 (i : S8x128x128.Idx) (q : dot_S8x128x128_S8x128x128_S8x128x128_2_1_1_2_0_0.contr.Idx) :
    (dot_S8x128x128_S8x128x128_S8x128x128_2_1_1_2_0_0.rhsIdx i q 2).val = (i 2).val := by
  unfold DotDims.rhsIdx
  rw [dif_neg (show ¬(2 : Fin S8x128x128.rank) ∈ dot_S8x128x128_S8x128x128_S8x128x128_2_1_1_2_0_0.rhsBatch by decide), dif_pos (show (2 : Fin S8x128x128.rank) ∈ dot_S8x128x128_S8x128x128_S8x128x128_2_1_1_2_0_0.rhsNonContracting by decide)]
  rfl

/-- Queries against keys: entry (n, r, j) is the inner product of query row (n, r) and key row (n, j). -/
theorem qk_apply (a b : FVec Ideal S8x128x128 .f32) (n : Fin 8) (r j : Fin 128) :
    matmul dot_S8x128x128_S8x128x128_S8x128x128_2_2_1_1_0_0 (some .fp32) a b (constant S8x128x128 .f32 0x00000000#32) (ix3 n r j)
      = ∑ t : Fin 128, a (ix3 n r t) * b (ix3 n j t) := by
  simp only [matmul]
  rw [Ideal.matmul_constant_zero_apply, ← Equiv.sum_comp (contrEquiv1 dot_S8x128x128_S8x128x128_S8x128x128_2_2_1_1_0_0 128 rfl rfl).symm]
  refine Finset.sum_congr rfl fun t _ => ?_
  have hk := contrEquiv1_symm_val dot_S8x128x128_S8x128x128_S8x128x128_2_2_1_1_0_0 128 rfl rfl t
  have el : dot_S8x128x128_S8x128x128_S8x128x128_2_2_1_1_0_0.lhsIdx (ix3 n r j) ((contrEquiv1 dot_S8x128x128_S8x128x128_S8x128x128_2_2_1_1_0_0 128 rfl rfl).symm t) = ix3 n r t := funext fun x => Fin.ext (by
    match x with
    | ⟨0, _⟩ => exact qk_lhs_0 _ _
    | ⟨1, _⟩ => exact qk_lhs_1 _ _
    | ⟨2, _⟩ => exact (qk_lhs_2 _ _).trans hk)
  have er : dot_S8x128x128_S8x128x128_S8x128x128_2_2_1_1_0_0.rhsIdx (ix3 n r j) ((contrEquiv1 dot_S8x128x128_S8x128x128_S8x128x128_2_2_1_1_0_0 128 rfl rfl).symm t) = ix3 n j t := funext fun x => Fin.ext (by
    match x with
    | ⟨0, _⟩ => exact qk_rhs_0 _ _
    | ⟨1, _⟩ => exact qk_rhs_1 _ _
    | ⟨2, _⟩ => exact (qk_rhs_2 _ _).trans hk)
  rw [el, er]

/-- Weights against values: entry (n, r, d) is ∑ j, w (n, r, j) · c (n, j, d). -/
theorem pv_apply (w c : FVec Ideal S8x128x128 .f32) (n : Fin 8) (r d : Fin 128) :
    matmul dot_S8x128x128_S8x128x128_S8x128x128_2_1_1_2_0_0 (some .fp32) w c (constant S8x128x128 .f32 0x00000000#32) (ix3 n r d)
      = ∑ j : Fin 128, w (ix3 n r j) * c (ix3 n j d) := by
  simp only [matmul]
  rw [Ideal.matmul_constant_zero_apply, ← Equiv.sum_comp (contrEquiv1 dot_S8x128x128_S8x128x128_S8x128x128_2_1_1_2_0_0 128 rfl rfl).symm]
  refine Finset.sum_congr rfl fun j _ => ?_
  have hk := contrEquiv1_symm_val dot_S8x128x128_S8x128x128_S8x128x128_2_1_1_2_0_0 128 rfl rfl j
  have el : dot_S8x128x128_S8x128x128_S8x128x128_2_1_1_2_0_0.lhsIdx (ix3 n r d) ((contrEquiv1 dot_S8x128x128_S8x128x128_S8x128x128_2_1_1_2_0_0 128 rfl rfl).symm j) = ix3 n r j := funext fun x => Fin.ext (by
    match x with
    | ⟨0, _⟩ => exact pv_lhs_0 _ _
    | ⟨1, _⟩ => exact pv_lhs_1 _ _
    | ⟨2, _⟩ => exact (pv_lhs_2 _ _).trans hk)
  have er : dot_S8x128x128_S8x128x128_S8x128x128_2_1_1_2_0_0.rhsIdx (ix3 n r d) ((contrEquiv1 dot_S8x128x128_S8x128x128_S8x128x128_2_1_1_2_0_0 128 rfl rfl).symm j) = ix3 n j d := funext fun x => Fin.ext (by
    match x with
    | ⟨0, _⟩ => exact pv_rhs_0 _ _
    | ⟨1, _⟩ => exact (pv_rhs_1 _ _).trans hk
    | ⟨2, _⟩ => exact pv_rhs_2 _ _)
  rw [el, er]

/-- The index the reduction over the last axis inserts its coordinate into. -/
theorem lift_eq (h : S8x128x128.Reduces [2] S8x128) (n : Fin 8) (r j : Fin 128) : h.lift (ix2 n r) j = ix3 n r j :=
  funext fun x => Fin.ext (by match x with | ⟨0, _⟩ => rfl | ⟨1, _⟩ => rfl | ⟨2, _⟩ => rfl)

/-- A column [8, 128, 1] broadcast along the last axis, read at (n, r, j): the [8, 128] operand at (n, r). -/
theorem column_apply (x : FVec Ideal S8x128 .f32) (h5 : S8x128.ShapeCasts S8x128x1) (h6 : S8x128x1.Broadcasts S8x128x128)
    (n : Fin 8) (r j : Fin 128) :
    broadcastTo S8x128x128 (shapeCast S8x128x1 x h5) h6 (ix3 n r j) = x (ix2 n r) := by
  rw [broadcastTo_apply _ h6 (ix3 n r j) (ix3 n r (0 : Fin 1)) (fun a => by
    match a with
    | ⟨0, _⟩ => rfl
    | ⟨1, _⟩ => rfl
    | ⟨2, _⟩ => rfl)]
  exact shapeCast_apply x h5 (ix3 n r (0 : Fin 1)) (ix2 n r) (by
    rewrite [Shape.rowMajor_val_two, Shape.rowMajor_val_three]
    show n.val * 128 + r.val = (n.val * 128 + r.val) * 1 + 0; omega)

/-- The row maximum as a broadcast column: at (n, r, j) the maximum over j' of s (n, r, j'), from the accumulator's value. -/
theorem rowMax_apply (s : FVec Ideal S8x128x128 .f32) (h : S8x128x128.Reduces [2] S8x128) (h5 : S8x128.ShapeCasts S8x128x1)
    (h6 : S8x128x1.Broadcasts S8x128x128) (hφ : FKind.Formats .f32) (hacc : (0xFF800000#32 : BitVec 32) = FKind.maximumf.neutral .f32 hφ)
    (n : Fin 8) (r j : Fin 128) :
    broadcastTo S8x128x128 (shapeCast S8x128x1 (multiReduction .maximumf [2] S8x128 s 0xFF800000#32 h hφ hacc) h5) h6 (ix3 n r j)
      = (Finset.univ : Finset (Fin 128)).fold max (Ideal.ofBits .f32 0xFF800000#32) (fun j' => s (ix3 n r j')) := by
  rw [column_apply, Ideal.multiReduction_maximumf_single]
  refine congrArg (Finset.fold max _ · Finset.univ) (funext fun j' => ?_)
  exact congrArg s (lift_eq h n r j')

/-- The row sum as a broadcast column: at (n, r, j) the sum over j' of s (n, r, j'). -/
theorem rowSum_apply (s : FVec Ideal S8x128x128 .f32) (h : S8x128x128.Reduces [2] S8x128) (h5 : S8x128.ShapeCasts S8x128x1)
    (h6 : S8x128x1.Broadcasts S8x128x128) (hφ : FKind.Formats .f32) (hacc : (0x00000000#32 : BitVec 32) = FKind.add.neutral .f32 hφ)
    (n : Fin 8) (r j : Fin 128) :
    broadcastTo S8x128x128 (shapeCast S8x128x1 (multiReduction .add [2] S8x128 s 0x00000000#32 h hφ hacc) h5) h6 (ix3 n r j)
      = ∑ j' : Fin 128, s (ix3 n r j') := by
  rw [column_apply, Ideal.multiReduction_add_single]
  exact Finset.sum_congr rfl fun j' _ => congrArg s (lift_eq h n r j')

end Cert.KernelIdeal.Tile

end
-- ==== Proof.AttnSpec.lean ====
/-
  Block attention on the extended reals, as ONE function of three 128 × 128 blocks.

  For a query block `q`, a key block `k` and a value block `v` (rows × features), row `r` of the result is
  the softmax-weighted mean of the value rows:
    score r j  = (∑ t, q r t · k j t) · c            (c the scale, kept as the programs' word)
    top r      = max over j of score r j, from −∞     (−∞ kept as the programs' word)
    expo r j   = exp (score r j − top r)
    weight r j = expo r j / ∑ j', expo r j'
    out r d    = ∑ j, weight r j · v j d
  Both programs compute exactly this per (batch, head, block); they differ only in how the blocks are cut out of
  the [4, 4096, 1024] arrays and in the order their sums and maxima are taken, which the extended reals do not see.
-/
import Idealize.ShloMosaic.PureOps.Ideal
import Idealize.ShloMosaic.PureOps.Ideal.Laws
import Mathlib.Data.Finset.Fold

noncomputable section

open Idealize.ShloMosaic

namespace Cert.Attn

/-- The scale `1/√128` as both programs spell it: the f32 word, read at the ideal values. -/
abbrev scaleC : EReal := Ideal.ofBits .f32 0x3DB504F3#32
/-- The value both maxima start from (the f32 word of −∞). -/
abbrev bottom : EReal := Ideal.ofBits .f32 0xFF800000#32

/-- A 128 × 128 block of extended reals: row, then feature (or key position). -/
abbrev Blk := Fin 128 → Fin 128 → EReal

/-- The scaled inner product of query row `r` and key row `j`. -/
def score (q k : Blk) (r j : Fin 128) : EReal := (∑ t : Fin 128, q r t * k j t) * scaleC

/-- The largest score of query row `r`. -/
def top (q k : Blk) (r : Fin 128) : EReal := (Finset.univ : Finset (Fin 128)).fold max bottom (score q k r)

/-- The shifted exponential. -/
def expo (q k : Blk) (r j : Fin 128) : EReal := Ideal.exp (score q k r j - top q k r)

/-- The softmax weight of key row `j` for query row `r`. -/
def weight (q k : Blk) (r j : Fin 128) : EReal := Ideal.div (expo q k r j) (∑ j' : Fin 128, expo q k r j')

/-- Entry `(r, d)` of the block's attention output. -/
def out (q k v : Blk) (r d : Fin 128) : EReal := ∑ j : Fin 128, weight q k r j * v j d

/-- A maximum that starts from `b` is at least `b`: taking the maximum with `b` once more changes nothing. -/
theorem max_fold_start (b : EReal) (f : Fin 128 → EReal) :
    max b ((Finset.univ : Finset (Fin 128)).fold max b f) = (Finset.univ : Finset (Fin 128)).fold max b f :=
  max_eq_right ((Finset.le_fold_max b).mpr (Or.inl le_rfl))

end Cert.Attn

end
-- ==== Proof.HeadValue.lean ====
/-
  One head of the kernel body, read at an index.

  The body treats the eight heads alike: from the three [1, 1024, 128] slabs of a head (queries, keys, values: 1024
  rows of the grid point's sequence tile, the head's 128 features) it computes a [1, 1024, 128] slab. The rows fall
  into 8 blocks of 128; row 128·n + r of the result, at feature d, is the block attention of block n's three
  128 × 128 blocks at (r, d). The eight heads' values are written as differently grouped compositions of the same
  operations; each is the first head's function.
-/
import proofs.«153206_j67757404062393_2_alg».proof.Proof.TileOps
import proofs.«153206_j67757404062393_2_alg».proof.Proof.AttnSpec

noncomputable section

open Idealize.ShloMosaic Idealize.ShloMosaic.ValueIdx

namespace Cert.KernelIdeal.Head

open Cert.KernelIdeal Cert.KernelIdeal.Gen

variable {F : FTy → Type} [FloatOps F]

/-! ## The eight heads are one function of their slabs -/

theorem head1_eq (q k v : Vec F S1x1024x128 .f32) : k0_pay6 (k0_pay4 q) (k0_pay5 k) v = k0_pay3 q k v := rfl
theorem head2_eq (q k v : Vec F S1x1024x128 .f32) : k0_pay9 (k0_pay7 v) (k0_pay8 q k) = k0_pay3 q k v := rfl
theorem head3_eq (q k v : Vec F S1x1024x128 .f32) : k0_pay10 q k v = k0_pay3 q k v := rfl
theorem head4_eq (q k v : Vec F S1x1024x128 .f32) : k0_pay11 q k v = k0_pay3 q k v := rfl
theorem head5_eq (q k v : Vec F S1x1024x128 .f32) : k0_pay15 (k0_pay12 q) (k0_pay13 k) (k0_pay14 v) = k0_pay3 q k v := rfl
theorem head6_eq (q k v : Vec F S1x1024x128 .f32) : k0_pay1 (k0_pay16 v) (k0_pay17 q k) = k0_pay3 q k v := rfl
theorem head7_eq (q k v : Vec F S1x1024x128 .f32) : k0_pay2 q k v = k0_pay3 q k v := rfl

/-! ## A head at an index -/

/-- Block `n` of a slab: rows 128·n … 128·n + 127, as a 128 × 128 block. -/
def slabBlk (x : Vec Ideal S1x1024x128 .f32) (n : Fin 8) : Cert.Attn.Blk := fun r t => x (ix3 (0 : Fin 1) (Tile.row n r) t)

theorem exp_apply {s : Shape} {φ : FTy} (x : FVec Ideal s φ) (i : s.Idx) : exp x i = Ideal.exp (x i) := rfl

/-- The softmax of a score tile along its last axis, at (n, r, j): with `sc` the row's scores, the shifted exponential
    of `sc j` over the sum of the row's shifted exponentials, the shift the row's maximum. -/
theorem softmax_apply (s : FVec Ideal S8x128x128 .f32) (h : S8x128x128.Reduces [2] S8x128) (h5 : S8x128.ShapeCasts S8x128x1)
    (h6 : S8x128x1.Broadcasts S8x128x128) (hφ : FKind.Formats .f32) (hm : (0xFF800000#32 : BitVec 32) = FKind.maximumf.neutral .f32 hφ)
    (ha : (0x00000000#32 : BitVec 32) = FKind.add.neutral .f32 hφ) (n : Fin 8) (r j : Fin 128)
    (sc : Fin 128 → EReal) (hs : ∀ j' : Fin 128, s (ix3 n r j') = sc j') :
    divf (exp (subf s (broadcastTo S8x128x128 (shapeCast S8x128x1 (multiReduction .maximumf [2] S8x128 s 0xFF800000#32 h hφ hm) h5) h6)))
        (broadcastTo S8x128x128 (shapeCast S8x128x1 (multiReduction .add [2] S8x128
          (exp (subf s (broadcastTo S8x128x128 (shapeCast S8x128x1 (multiReduction .maximumf [2] S8x128 s 0xFF800000#32 h hφ hm) h5) h6)))
          0x00000000#32 h hφ ha) h5) h6) (ix3 n r j)
      = Ideal.div (Ideal.exp (sc j - (Finset.univ : Finset (Fin 128)).fold max Cert.Attn.bottom sc))
          (∑ j'' : Fin 128, Ideal.exp (sc j'' - (Finset.univ : Finset (Fin 128)).fold max Cert.Attn.bottom sc)) := by
  have hf : (fun j' : Fin 128 => s (ix3 n r j')) = sc := funext hs
  rw [divf_apply, Tile.rowSum_apply, exp_apply, subf_apply, Tile.rowMax_apply, hf, hs]
  refine congrArg _ (Finset.sum_congr rfl fun j'' _ => ?_)
  rw [exp_apply, subf_apply, Tile.rowMax_apply, hf, hs]

/-- Row ρ, feature d of a head's result: the block attention of the row's block, at (ρ mod 128, d). -/
theorem head_apply (q k v : Vec Ideal S1x1024x128 .f32) (ρ : Fin 1024) (d : Fin 128) :
    k0_pay3 (F := Ideal) q k v (ix3 (0 : Fin 1) ρ d)
      = Cert.Attn.out (slabBlk q ⟨ρ.val / 128, by have := ρ.isLt; omega⟩) (slabBlk k ⟨ρ.val / 128, by have := ρ.isLt; omega⟩)
          (slabBlk v ⟨ρ.val / 128, by have := ρ.isLt; omega⟩) ⟨ρ.val % 128, by omega⟩ d := by
  unfold k0_pay3
  rw [Tile.toSlab_apply, Tile.pv_apply]
  unfold Cert.Attn.out
  refine Finset.sum_congr rfl fun j _ => ?_
  rw [Tile.toTile_apply]
  refine congrArg₂ (· * ·) ?_ rfl
  refine (softmax_apply _ _ _ _ _ _ _ _ _ _ (Cert.Attn.score (slabBlk q ⟨ρ.val / 128, by have := ρ.isLt; omega⟩)
    (slabBlk k ⟨ρ.val / 128, by have := ρ.isLt; omega⟩) ⟨ρ.val % 128, by omega⟩) ?_).trans rfl
  intro j'
  rw [mulf_apply, Tile.qk_apply]
  unfold Cert.Attn.score
  refine congrArg₂ (· * ·) (Finset.sum_congr rfl fun t _ => ?_) rfl
  rw [Tile.toTile_apply, Tile.toTile_apply]
  rfl

end Cert.KernelIdeal.Head

end
-- ==== Proof.BlockValue.lean ====
/-
  The body's output block as ONE function of its three input blocks.

  A grid point's blocks are [1, 1024, 1024]: 1024 rows of one batch element's sequence, all 1024 features. The body
  writes the output block in eight pieces, one per head: features 128·h … 128·h + 127 of every row. So entry
  (0, ρ, e) of the output block belongs to head e / 128 and row block ρ / 128, and is the block attention of the three
  128 × 128 blocks (rows 128·(ρ / 128) …, features 128·(e / 128) …) of the input blocks, at (ρ mod 128, e mod 128).
-/
import proofs.«153206_j67757404062393_2_alg».proof.Proof.HeadValue
import proofs.«153206_j67757404062393_2_alg».proof.Proof.Gen.KernelIdeal.Frame

noncomputable section

open Idealize.ShloMosaic Idealize.ShloMosaic.ValueIdx

namespace Cert.KernelIdeal.Block

open Cert.KernelIdeal Cert.KernelIdeal.Gen

/-- Feature `128·h + t`. -/
abbrev feat (h : Fin 8) (t : Fin 128) : Fin 1024 := ⟨h.val * 128 + t.val, by have := h.isLt; have := t.isLt; omega⟩

/-- The 128 × 128 block (row block n, head h) of a [1, 1024, 1024] block. -/
def tileBlk (x : Vec Ideal S1x1024x1024 .f32) (n h : Fin 8) : Cert.Attn.Blk :=
  fun r t => x (ix3 (0 : Fin 1) (Tile.row n r) (feat h t))

/-- The output block's entry at row ρ, feature e (as numbers below 1024). -/
def blockAt (x0 x1 x2 : Vec Ideal S1x1024x1024 .f32) (ρ e : Nat) (hρ : ρ < 1024) (he : e < 1024) : EReal :=
  Cert.Attn.out (tileBlk x0 ⟨ρ / 128, by omega⟩ ⟨e / 128, by omega⟩) (tileBlk x1 ⟨ρ / 128, by omega⟩ ⟨e / 128, by omega⟩)
    (tileBlk x2 ⟨ρ / 128, by omega⟩ ⟨e / 128, by omega⟩) ⟨ρ % 128, by omega⟩ ⟨e % 128, by omega⟩

theorem blockAt_congr (x0 x1 x2 : Vec Ideal S1x1024x1024 .f32) {ρ ρ' e e' : Nat} (h1 : ρ = ρ') (h2 : e = e')
    (hρ : ρ < 1024) (he : e < 1024) (hρ' : ρ' < 1024) (he' : e' < 1024) :
    blockAt x0 x1 x2 ρ e hρ he = blockAt x0 x1 x2 ρ' e' hρ' he' := by
  subst h1; subst h2; rfl

/-- The whole output block, index by index. -/
def blockOut (x0 x1 x2 : Vec Ideal S1x1024x1024 .f32) : Vec Ideal S1x1024x1024 .f32 :=
  fun y => blockAt x0 x1 x2 (y 1).val (y 2).val (y 1).isLt (y 2).isLt

/-- The entry at row ρ of head h's feature d. -/
theorem blockAt_head (x0 x1 x2 : Vec Ideal S1x1024x1024 .f32) (h : Fin 8) (ρ : Fin 1024) (d : Fin 128)
    (hρ : ρ.val < 1024) (he : h.val * 128 + d.val < 1024) :
    blockAt x0 x1 x2 ρ.val (h.val * 128 + d.val) hρ he
      = Cert.Attn.out (tileBlk x0 ⟨ρ.val / 128, by omega⟩ h) (tileBlk x1 ⟨ρ.val / 128, by omega⟩ h)
          (tileBlk x2 ⟨ρ.val / 128, by omega⟩ h) ⟨ρ.val % 128, by omega⟩ d := by
  have eh : (⟨(h.val * 128 + d.val) / 128, by omega⟩ : Fin 8) = h := Fin.ext (by
    show (h.val * 128 + d.val) / 128 = h.val; have := d.isLt; omega)
  have ed : (⟨(h.val * 128 + d.val) % 128, by omega⟩ : Fin 128) = d := Fin.ext (by
    show (h.val * 128 + d.val) % 128 = d.val; have := d.isLt; omega)
  unfold blockAt
  rw [eh, ed]

/-- Head h's piece: its payload over the three input blocks' feature windows is the output block's function on the
    piece's rectangle. -/
theorem piece_eq (x0 x1 x2 : Vec Ideal S1x1024x1024 .f32) (h : Fin 8)
    (inb : ∀ a, (![0, 0, h.val * 128] : Fin 3 → Nat) a + S1x1024x128.size a ≤ S1x1024x1024.size a) (x : S1x1024x128.Idx) :
    k0_pay3 (F := Ideal) (View.ld x0 (Rect.unit (s := S1x1024x1024) ![0, 0, h.val * 128] S1x1024x128.size inb))
        (View.ld x1 (Rect.unit (s := S1x1024x1024) ![0, 0, h.val * 128] S1x1024x128.size inb))
        (View.ld x2 (Rect.unit (s := S1x1024x1024) ![0, 0, h.val * 128] S1x1024x128.size inb)) x
      = blockOut x0 x1 x2 ((Rect.unit (s := S1x1024x1024) ![0, 0, h.val * 128] S1x1024x128.size inb).emb x) := by
  obtain ⟨ρ, d, rfl⟩ : ∃ (ρ : Fin 1024) (d : Fin 128), x = ix3 (0 : Fin 1) ρ d := ⟨x 1, x 2, by
    funext a
    match a with
    | ⟨0, _⟩ => exact Subsingleton.elim (α := Fin 1) _ _
    | ⟨1, _⟩ => rfl
    | ⟨2, _⟩ => rfl⟩
  rw [Head.head_apply]
  unfold blockOut
  refine Eq.trans ?_ (blockAt_congr x0 x1 x2 (ρ := ρ.val) (e := h.val * 128 + d.val)
    (by show ρ.val = 0 + 1 * ρ.val; omega) (by show h.val * 128 + d.val = h.val * 128 + 1 * d.val; omega) ρ.isLt
    (by have := h.isLt; have := d.isLt; omega) _ _)
  rw [blockAt_head]
  have hb : ∀ z : Vec Ideal S1x1024x1024 .f32,
      Head.slabBlk (View.ld z (Rect.unit (s := S1x1024x1024) ![0, 0, h.val * 128] S1x1024x128.size inb)) ⟨ρ.val / 128, by have := ρ.isLt; omega⟩
        = tileBlk z ⟨ρ.val / 128, by have := ρ.isLt; omega⟩ h := fun z => by
    funext r t
    unfold Head.slabBlk tileBlk
    refine congrArg z (funext fun a => Fin.ext ?_)
    match a with
    | ⟨0, _⟩ => show 0 + 1 * 0 = 0; rfl
    | ⟨1, _⟩ => show 0 + 1 * (ρ.val / 128 * 128 + r.val) = ρ.val / 128 * 128 + r.val; omega
    | ⟨2, _⟩ => show h.val * 128 + 1 * t.val = h.val * 128 + t.val; omega
  rw [hb x0, hb x1, hb x2]

/-- THE BLOCK: the canon of the body's eight stores is `blockOut` of the input blocks. -/
theorem out_eq (x0 x1 x2 : Vec Ideal S1x1024x1024 .f32) : out0_3 (F := Ideal) x0 x1 x2 = blockOut x0 x1 x2 := by
  funext y
  unfold out0_3
  refine View.canon_apply_of_pieces (blockOut x0 x1 x2) _ ?_ y (cover0_3 _ _ _ _ _ _ _ _ y)
  intro p hp x
  simp only [List.mem_cons, List.not_mem_nil, or_false] at hp
  rcases hp with rfl | rfl | rfl | rfl | rfl | rfl | rfl | rfl
  · exact (congrFun (Head.head7_eq _ _ _) x).trans (piece_eq x0 x1 x2 7 _ x)
  · exact (congrFun (Head.head6_eq _ _ _) x).trans (piece_eq x0 x1 x2 6 _ x)
  · exact (congrFun (Head.head5_eq _ _ _) x).trans (piece_eq x0 x1 x2 5 _ x)
  · exact (congrFun (Head.head4_eq _ _ _) x).trans (piece_eq x0 x1 x2 4 _ x)
  · exact (congrFun (Head.head3_eq _ _ _) x).trans (piece_eq x0 x1 x2 3 _ x)
  · exact (congrFun (Head.head2_eq _ _ _) x).trans (piece_eq x0 x1 x2 2 _ x)
  · exact (congrFun (Head.head1_eq _ _ _) x).trans (piece_eq x0 x1 x2 1 _ x)
  · exact piece_eq x0 x1 x2 0 _ x

end Cert.KernelIdeal.Block

end
-- ==== Proof.WholeSpec.lean ====
/-
  Block-diagonal attention of the whole [4, 4096, 1024] arrays, index by index.

  The 1024 features are 8 heads of 128; the 4096 positions are 32 blocks of 128. Entry (b, s, e) of the result is the
  block attention (AttnSpec) of batch element b's three 128 × 128 blocks at position block s / 128 and head e / 128 —
  rows 128·(s / 128) …, features 128·(e / 128) … of the query, key and value arrays — read at (s mod 128, e mod 128).
-/
import proofs.«153206_j67757404062393_2_alg».proof.Proof.AttnSpec
import Idealize.ShloMosaic.Lib.ValueIdx

noncomputable section

open Idealize.ShloMosaic Idealize.ShloMosaic.ValueIdx

namespace Cert.Attn

/-- A [4, 4096, 1024] array of extended reals. -/
abbrev Arr := (⟨3, ![4, 4096, 1024]⟩ : Shape).Idx → EReal

/-- The 128 × 128 block of batch element `b`, position block `n`, head `h`. -/
def seqBlk (X : Arr) (b : Fin 4) (n : Fin 32) (h : Fin 8) : Blk := fun r t =>
  X (ix3 b (⟨n.val * 128 + r.val, by have := n.isLt; have := r.isLt; omega⟩ : Fin 4096)
    (⟨h.val * 128 + t.val, by have := h.isLt; have := t.isLt; omega⟩ : Fin 1024))

/-- The result's entry (b, s, e). -/
def gAt (Q K V : Arr) (b : Fin 4) (s : Fin 4096) (e : Fin 1024) : EReal :=
  out (seqBlk Q b ⟨s.val / 128, by have := s.isLt; omega⟩ ⟨e.val / 128, by have := e.isLt; omega⟩)
    (seqBlk K b ⟨s.val / 128, by have := s.isLt; omega⟩ ⟨e.val / 128, by have := e.isLt; omega⟩)
    (seqBlk V b ⟨s.val / 128, by have := s.isLt; omega⟩ ⟨e.val / 128, by have := e.isLt; omega⟩)
    ⟨s.val % 128, by omega⟩ ⟨e.val % 128, by omega⟩

/-- The whole result. -/
def G (Q K V : Arr) : Arr := fun i => gAt Q K V (i 0) (i 1) (i 2)

end Cert.Attn

end
-- ==== Proof.KernelValue.lean ====
/-
  The kernel's result array is the block-diagonal attention of its argument arrays.

  The grid is 4 × 4: point (b, g) stages, for each of the three inputs and for the output, the block of batch element b
  and positions 1024·g … 1024·g + 1023 (all features). Entry (0, ρ, e) of a block is entry (b, 1024·g + ρ, e) of its
  array; since 1024 is a multiple of the attention block 128, the row block of position 1024·g + ρ inside the array is
  the row block of ρ inside the staged block shifted by 8·g, and the output block's function (BlockValue) is the
  whole-array function (WholeSpec) read through the block. The sixteen blocks tile the array, so the array ends at it.
-/
import proofs.«153206_j67757404062393_2_alg».proof.Proof.BlockValue
import proofs.«153206_j67757404062393_2_alg».proof.Proof.WholeSpec
import proofs.«153206_j67757404062393_2_alg».proof.Proof.Gen.KernelIdeal.Value

noncomputable section

open Idealize.ShloMosaic Idealize.ShloMosaic.ValueIdx Idealize.ShloMosaic.TcCoe Idealize.SL.Sem

namespace Cert.KernelIdeal.Whole

open Cert.KernelIdeal Cert.KernelIdeal.Gen
open Idealize.ShloMosaic.Pipeline (Dat)

/-- A block entry is the array function's entry: for blocks that hold batch element `b`, positions 1024·g …. -/
theorem blockAt_eq_gAt (Q K V : Cert.Attn.Arr) (x0 x1 x2 : Vec Ideal S1x1024x1024 .f32) (b g : Fin 4)
    (hx0 : ∀ ρ e : Fin 1024, x0 (ix3 (0 : Fin 1) ρ e) = Q (ix3 b (⟨g.val * 1024 + ρ.val, by have := g.isLt; have := ρ.isLt; omega⟩ : Fin 4096) e))
    (hx1 : ∀ ρ e : Fin 1024, x1 (ix3 (0 : Fin 1) ρ e) = K (ix3 b (⟨g.val * 1024 + ρ.val, by have := g.isLt; have := ρ.isLt; omega⟩ : Fin 4096) e))
    (hx2 : ∀ ρ e : Fin 1024, x2 (ix3 (0 : Fin 1) ρ e) = V (ix3 b (⟨g.val * 1024 + ρ.val, by have := g.isLt; have := ρ.isLt; omega⟩ : Fin 4096) e))
    (ρ e : Fin 1024) :
    Block.blockAt x0 x1 x2 ρ.val e.val ρ.isLt e.isLt
      = Cert.Attn.gAt Q K V b ⟨g.val * 1024 + ρ.val, by have := g.isLt; have := ρ.isLt; omega⟩ e := by
  unfold Block.blockAt Cert.Attn.gAt
  have hr : (⟨(g.val * 1024 + ρ.val) % 128, by omega⟩ : Fin 128) = ⟨ρ.val % 128, by omega⟩ := Fin.ext (by
    show (g.val * 1024 + ρ.val) % 128 = ρ.val % 128; omega)
  have hblk : ∀ (X : Cert.Attn.Arr) (x : Vec Ideal S1x1024x1024 .f32),
      (∀ ρ e : Fin 1024, x (ix3 (0 : Fin 1) ρ e) = X (ix3 b (⟨g.val * 1024 + ρ.val, by have := g.isLt; have := ρ.isLt; omega⟩ : Fin 4096) e)) →
      Block.tileBlk x ⟨ρ.val / 128, by have := ρ.isLt; omega⟩ ⟨e.val / 128, by have := e.isLt; omega⟩
        = Cert.Attn.seqBlk X b ⟨(g.val * 1024 + ρ.val) / 128, by have := g.isLt; have := ρ.isLt; omega⟩ ⟨e.val / 128, by have := e.isLt; omega⟩ := by
    intro X x hx
    funext r t
    unfold Block.tileBlk Cert.Attn.seqBlk
    rw [hx]
    refine congrArg X (funext fun a => Fin.ext ?_)
    match a with
    | ⟨0, _⟩ => rfl
    | ⟨1, _⟩ =>
      show g.val * 1024 + (ρ.val / 128 * 128 + r.val) = (g.val * 1024 + ρ.val) / 128 * 128 + r.val
      omega
    | ⟨2, _⟩ => rfl
  rw [hblk Q x0 hx0, hblk K x1 hx1, hblk V x2 hx2, hr]

variable (m : (ℓ : Loc nD τ sig) → Buf (Elt Ideal) ℓ) (ρ : Dev nD → PrngReg)

/-- The index maps over the 16 grid points: every input window's block index is the output window's, the feature
    block index is 0, and the batch and position block indices are below 4. -/
theorem idx_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = win0_3.index t (1 : Fin 3) ∧ win0_1.index t (2 : Fin 3) = 0
    ∧ win0_2.index t (0 : Fin 3) = win0_3.index t (0 : Fin 3) ∧ win0_2.index t (1 : Fin 3) = win0_3.index t (1 : Fin 3) ∧ win0_2.index t (2 : Fin 3) = 0
    ∧ win0_3.index t (2 : Fin 3) = 0 ∧ win0_3.index t (0 : Fin 3) < 4 ∧ win0_3.index t (1 : Fin 3) < 4 :=
  (by decide +kernel : ∀ t : Fin grid0.N, _)

/-- Every (batch element, position block) pair is some point's. -/
theorem idx_onto : ∀ (q0 : Fin 4) (q1 : Fin 4), ∃ t : Fin cfg0.N, win0_3.index t = ![q0.val, q1.val, 0] :=
  (by decide +kernel : ∀ (q0 : Fin 4) (q1 : Fin 4), ∃ t : Fin grid0.N, win0_3.index t = ![q0.val, q1.val, 0])

/-- WHAT POINT `t` WRITES BACK is block `t` of the attention of the argument arrays. -/
theorem flushed_eq (c : Dev nD) (t : Fin cfg0.N) :
    (dats m 0 c).flushed 3 t = ((cfg0.win 3).blk t).view.read (Elt Ideal)
      (Cert.Attn.G (V m c main_arg0) (V m c main_arg1) (V m c main_arg2)) := by
  rw [Value.flushed3, Block.out_eq]
  obtain ⟨a00, a01, a02, a10, a11, a12, a20, a21, a22, o2, hb, hg⟩ := idx_facts t
  funext y
  show Block.blockOut (iblk m c 0 t) (iblk m c 1 t) (iblk m c 2 t) y
    = Cert.Attn.G (V m c main_arg0) (V m c main_arg1) (V m c main_arg2) (((cfg0.win 3).blk t).view.emb y)
  unfold Block.blockOut Cert.Attn.G
  refine (blockAt_eq_gAt (V m c main_arg0) (V m c main_arg1) (V m c main_arg2) (iblk m c 0 t) (iblk m c 1 t) (iblk m c 2 t)
    ⟨win0_3.index t (0 : Fin 3), hb⟩ ⟨win0_3.index t (1 : Fin 3), hg⟩ ?_ ?_ ?_ ⟨(y 1).val, (y 1).isLt⟩ ⟨(y 2).val, (y 2).isLt⟩).trans ?_
  · intro ρ e
    show V m c main_arg0 (((cfg0.win 0).blk t).view.emb (ix3 (0 : Fin 1) ρ e)) = _
    refine congrArg (V m c main_arg0) (funext fun a => Fin.ext ?_)
    match a with
    | ⟨0, _⟩ => show win0_0.index t (0 : Fin 3) * 1 + 1 * 0 = win0_3.index t (0 : Fin 3); omega
    | ⟨1, _⟩ => show win0_0.index t (1 : Fin 3) * 1024 + 1 * ρ.val = win0_3.index t (1 : Fin 3) * 1024 + ρ.val; omega
    | ⟨2, _⟩ => show win0_0.index t (2 : Fin 3) * 1024 + 1 * e.val = e.val; omega
  · intro ρ e
    show V m c main_arg1 (((cfg0.win 1).blk t).view.emb (ix3 (0 : Fin 1) ρ e)) = _
    refine congrArg (V m c main_arg1) (funext fun a => Fin.ext ?_)
    match a with
    | ⟨0, _⟩ => show win0_1.index t (0 : Fin 3) * 1 + 1 * 0 = win0_3.index t (0 : Fin 3); omega
    | ⟨1, _⟩ => show win0_1.index t (1 : Fin 3) * 1024 + 1 * ρ.val = win0_3.index t (1 : Fin 3) * 1024 + ρ.val; omega
    | ⟨2, _⟩ => show win0_1.index t (2 : Fin 3) * 1024 + 1 * e.val = e.val; omega
  · intro ρ e
    show V m c main_arg2 (((cfg0.win 2).blk t).view.emb (ix3 (0 : Fin 1) ρ e)) = _
    refine congrArg (V m c main_arg2) (funext fun a => Fin.ext ?_)
    match a with
    | ⟨0, _⟩ => show win0_2.index t (0 : Fin 3) * 1 + 1 * 0 = win0_3.index t (0 : Fin 3); omega
    | ⟨1, _⟩ => show win0_2.index t (1 : Fin 3) * 1024 + 1 * ρ.val = win0_3.index t (1 : Fin 3) * 1024 + ρ.val; omega
    | ⟨2, _⟩ => show win0_2.index t (2 : Fin 3) * 1024 + 1 * e.val = e.val; omega
  · have e0 : (⟨win0_3.index t (0 : Fin 3), hb⟩ : Fin 4) = ((cfg0.win 3).blk t).view.emb y 0 := Fin.ext (by
      show win0_3.index t (0 : Fin 3) = win0_3.index t (0 : Fin 3) * 1 + 1 * (y 0).val
      have : (y 0).val < 1 := (y 0).isLt
      omega)
    have e1 : (⟨win0_3.index t (1 : Fin 3) * 1024 + (y 1).val, by have : (y 1).val < 1024 := (y 1).isLt; omega⟩ : Fin 4096)
        = ((cfg0.win 3).blk t).view.emb y 1 := Fin.ext (by
      show win0_3.index t (1 : Fin 3) * 1024 + (y 1).val = win0_3.index t (1 : Fin 3) * 1024 + 1 * (y 1).val
      omega)
    have e2 : (⟨(y 2).val, (y 2).isLt⟩ : Fin 1024) = ((cfg0.win 3).blk t).view.emb y 2 := Fin.ext (by
      show (y 2).val = win0_3.index t (2 : Fin 3) * 1024 + 1 * (y 2).val
      omega)
    exact congr (congr (congrArg (Cert.Attn.gAt (V m c main_arg0) (V m c main_arg1) (V m c main_arg2)) e0) e1) e2

/-- An index of the array is in point `t`'s block iff each coordinate is in the block's range on its axis. -/
theorem mem_blk (t : Fin cfg0.N) (i : S4x4096x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v0).slice (win0_3.rect t)).set ↔ _
  rw [View.set_slice_whole, Rect.mem_set_unit]
  exact Iff.rfl

/-- The sixteen blocks cover the array: entry (b, s, e) is in the block of point (b, s / 1024). -/
theorem cover (i : S4x4096x1024.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 1024 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- THE ARRAY after the run: the attention of the argument arrays. -/
theorem final (c : Dev nD) : (dats m 0 c).arrAt 3 cfg0.N
    = Cert.Attn.G (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: the result array at the attention of the argument arrays, the arguments unchanged. -/
theorem run : θ_run defs (onTc (τ := τ) (main (F := Ideal))) ⟨m, fun _ => 0, ρ⟩ fun r => ∀ c : Dev nD,
      r.2.mem ((c : Thread nD τ).loc main_v0)
        = Cert.Attn.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  The reference's result is the block-diagonal attention of its argument arrays.

  The reference splits each [4, 4096, 1024] array into [4, 8, 32, 128, 128] — batch, head, position block, row,
  feature — by a reshape, a transpose and a reshape: entry (b, h, n, r, t) is entry (b, 128·n + r, 128·h + t) of the
  array. On that layout it takes, per (b, h, n): the scaled scores, their row maximum (from −∞, then once more against
  −∞, which changes nothing), the shifted exponentials, their row sum (from 0), the quotient, and the product with the
  values — the block attention of AttnSpec at (r, d) — and lays the result back out by the inverse three steps.
-/
import proofs.«153206_j67757404062393_2_alg».proof.Proof.Gen.ReferenceIdeal.Read
import proofs.«153206_j67757404062393_2_alg».proof.Proof.WholeSpec
import Idealize.ShloMosaic.PureOps.Reduce

noncomputable section

open Idealize.ShloMosaic Idealize.ShloMosaic.ValueIdx

namespace Cert.ReferenceIdeal.RefValue

open Cert.ReferenceIdeal Cert.ReferenceIdeal.Gen Cert.ReferenceIdeal.Read Cert.Attn

/-- Position `128·n + r`. -/
abbrev pos (n : Fin 32) (r : Fin 128) : Fin 4096 := ⟨n.val * 128 + r.val, by have := n.isLt; have := r.isLt; omega⟩
/-- Feature `128·h + t`. -/
abbrev feat (h : Fin 8) (t : Fin 128) : Fin 1024 := ⟨h.val * 128 + t.val, by have := h.isLt; have := t.isLt; omega⟩

/-! ## The split layout -/

/-- Merging position block and row: (b, h, n, r, t) of the five-axis layout is (b, h, 128·n + r, t) of the four-axis one. -/
theorem idx_merge (b : Fin 4) (h : Fin 8) (n : Fin 32) (r t : Fin 128) :
    idx_main_v2 (ix5 b h n r t) = ix4 b h (pos n r) t := by
  have := b.isLt; have := h.isLt; have := n.isLt; have := r.isLt; have := t.isLt
  funext a; apply Fin.ext
  match a with
  | ⟨0, _⟩ => show ((((b.val * 8 + h.val) * 32 + n.val) * 128 + r.val) * 128 + t.val) / 4194304 = b.val; omega
  | ⟨1, _⟩ => show ((((b.val * 8 + h.val) * 32 + n.val) * 128 + r.val) * 128 + t.val) / 524288 % 8 = h.val; omega
  | ⟨2, _⟩ => show ((((b.val * 8 + h.val) * 32 + n.val) * 128 + r.val) * 128 + t.val) / 128 % 4096 = n.val * 128 + r.val; omega
  | ⟨3, _⟩ => show ((((b.val * 8 + h.val) * 32 + n.val) * 128 + r.val) * 128 + t.val) % 128 = t.val; omega

/-- Swapping head and position. -/
theorem idx_swap (b : Fin 4) (h : Fin 8) (s : Fin 4096) (t : Fin 128) : idx_main_v1 (ix4 b h s t) = ix4 b s h t := by
  funext a; apply Fin.ext
  match a with
  | ⟨0, _⟩ => rfl
  | ⟨1, _⟩ => rfl
  | ⟨2, _⟩ => rfl
  | ⟨3, _⟩ => rfl

/-- Merging head and feature: (b, s, h, t) is (b, s, 128·h + t). -/
theorem idx_flat (b : Fin 4) (s : Fin 4096) (h : Fin 8) (t : Fin 128) : idx_main_v0 (ix4 b s h t) = ix3 b s (feat h t) := by
  have := b.isLt; have := h.isLt; have := s.isLt; have := t.isLt
  funext a; apply Fin.ext
  match a with
  | ⟨0, _⟩ => show (((b.val * 4096 + s.val) * 8 + h.val) * 128 + t.val) / 4194304 = b.val; omega
  | ⟨1, _⟩ => show (((b.val * 4096 + s.val) * 8 + h.val) * 128 + t.val) / 1024 % 4096 = s.val; omega
  | ⟨2, _⟩ => show (((b.val * 4096 + s.val) * 8 + h.val) * 128 + t.val) % 1024 = h.val * 128 + t.val; omega

/-- The three steps together. -/
theorem idx_split (b : Fin 4) (h : Fin 8) (n : Fin 32) (r t : Fin 128) :
    idx_main_v0 (idx_main_v1 (idx_main_v2 (ix5 b h n r t))) = ix3 b (pos n r) (feat h t) := by
  rw [idx_merge, idx_swap, idx_flat]

variable (Q K V : (⟨S4x4096x1024, .f32⟩ : BufTy).Contents (Elt Ideal))

/-- The split queries at (b, h, n, r, t). -/
theorem q_apply (b : Fin 4) (h : Fin 8) (n : Fin 32) (r t : Fin 128) :
    val_main_v2 (F := Ideal) Q (ix5 b h n r t) = seqBlk Q b n h r t := by
  rw [val_main_v2_apply, val_main_v1_apply, val_main_v0_apply, idx_split]; rfl
/-- The split keys. -/
theorem k_apply (b : Fin 4) (h : Fin 8) (n : Fin 32) (r t : Fin 128) :
    val_main_v5 (F := Ideal) K (ix5 b h n r t) = seqBlk K b n h r t := by
  rw [val_main_v5_apply, val_main_v4_apply, val_main_v3_apply]
  exact congrArg K (idx_split b h n r t)
/-- The split values. -/
theorem v_apply (b : Fin 4) (h : Fin 8) (n : Fin 32) (r t : Fin 128) :
    val_main_v8 (F := Ideal) V (ix5 b h n r t) = seqBlk V b n h r t := by
  rw [val_main_v8_apply, val_main_v7_apply, val_main_v6_apply]
  exact congrArg V (idx_split b h n r t)

/-! ## The stages on the split layout -/

/-- The scaled scores. -/
theorem score_apply (b : Fin 4) (h : Fin 8) (n : Fin 32) (r j : Fin 128) :
    val_main_v11 (F := Ideal) Q K (ix5 b h n r j) = score (seqBlk Q b n h) (seqBlk K b n h) r j := by
  rw [val_main_v11_apply, val_main_v9_apply, val_main_v10_apply, val_main_cst_apply]
  unfold score
  refine congrArg₂ (· * ·) (Finset.sum_congr rfl fun t _ => ?_) rfl
  have el : lidx_main_v9 (ix5 b h n r j) t = ix5 b h n r t := funext fun a => Fin.ext (by
    match a with | ⟨0, _⟩ => rfl | ⟨1, _⟩ => rfl | ⟨2, _⟩ => rfl | ⟨3, _⟩ => rfl | ⟨4, _⟩ => rfl)
  have er : ridx_main_v9 (ix5 b h n r j) t = ix5 b h n j t := funext fun a => Fin.ext (by
    match a with | ⟨0, _⟩ => rfl | ⟨1, _⟩ => rfl | ⟨2, _⟩ => rfl | ⟨3, _⟩ => rfl | ⟨4, _⟩ => rfl)
  rw [el, er, q_apply, k_apply]

/-- The row maximum: the reduction from −∞ over the last axis, then the maximum with −∞ once more. -/
theorem top_apply (b : Fin 4) (h : Fin 8) (n : Fin 32) (r : Fin 128) :
    val_main_v14 (F := Ideal) Q K (ix4 b h n r) = top (seqBlk Q b n h) (seqBlk K b n h) r := by
  rw [val_main_v14_apply, val_main_v13_apply, val_main_cst_1_apply]
  unfold val_main_v12
  rw [Host.reduce_eq_fold_single FloatOps.maximumf _ _ reducesTo_S4x8x32x128x128_S4x8x32x128_d4
    (by decide : S4x8x32x128x128.Reduces [4] S4x8x32x128) h_S_]
  refine (max_fold_start bottom _).trans ?_
  unfold top
  refine congrArg (Finset.fold max _ · Finset.univ) (funext fun j => ?_)
  have el : (by decide : S4x8x32x128x128.Reduces [4] S4x8x32x128).lift (ix4 b h n r) j = ix5 b h n r j := funext fun a => Fin.ext (by
    match a with | ⟨0, _⟩ => rfl | ⟨1, _⟩ => rfl | ⟨2, _⟩ => rfl | ⟨3, _⟩ => rfl | ⟨4, _⟩ => rfl)
  exact (congrArg (val_main_v11 (F := Ideal) Q K) el).trans (score_apply Q K b h n r j)

/-- The shifted exponentials. -/
theorem expo_apply (b : Fin 4) (h : Fin 8) (n : Fin 32) (r j : Fin 128) :
    val_main_v18 (F := Ideal) Q K (ix5 b h n r j) = expo (seqBlk Q b n h) (seqBlk K b n h) r j := by
  rw [val_main_v18_apply, val_main_v17_apply, val_main_v16_apply, val_main_v15_apply]
  have e : idx_main_v15 (idx_main_v16 (ix5 b h n r j)) = ix4 b h n r := funext fun a => Fin.ext (by
    match a with | ⟨0, _⟩ => rfl | ⟨1, _⟩ => rfl | ⟨2, _⟩ => rfl | ⟨3, _⟩ => rfl)
  rw [e, top_apply, score_apply]
  rfl

/-- The softmax weights: the exponential over the row's sum of exponentials, the sum taken from 0. -/
theorem weight_apply (b : Fin 4) (h : Fin 8) (n : Fin 32) (r j : Fin 128) :
    val_main_v22 (F := Ideal) Q K (ix5 b h n r j) = weight (seqBlk Q b n h) (seqBlk K b n h) r j := by
  rw [val_main_v22_apply, val_main_v21_apply, val_main_v20_apply]
  have e : idx_main_v20 (idx_main_v21 (ix5 b h n r j)) = ix4 b h n r := funext fun a => Fin.ext (by
    match a with | ⟨0, _⟩ => rfl | ⟨1, _⟩ => rfl | ⟨2, _⟩ => rfl | ⟨3, _⟩ => rfl)
  rw [e, val_main_v19_apply, val_main_cst_2_apply, expo_apply]
  unfold weight
  show Ideal.div _ (Ideal.ofBits .f32 0x00000000#32 + _) = _
  rw [Ideal.ofBits_zero_f32, zero_add]
  refine congrArg _ (Finset.sum_congr rfl fun j' _ => ?_)
  have e' : idx_main_v19 (ix4 b h n r) j' = ix5 b h n r j' := funext fun a => Fin.ext (by
    match a with | ⟨0, _⟩ => rfl | ⟨1, _⟩ => rfl | ⟨2, _⟩ => rfl | ⟨3, _⟩ => rfl | ⟨4, _⟩ => rfl)
  rw [e', expo_apply]

/-- The weighted values: the block attention at (r, d). -/
theorem out_apply (b : Fin 4) (h : Fin 8) (n : Fin 32) (r d : Fin 128) :
    val_main_v23 (F := Ideal) Q K V (ix5 b h n r d) = out (seqBlk Q b n h) (seqBlk K b n h) (seqBlk V b n h) r d := by
  rw [val_main_v23_apply]
  unfold out
  refine Finset.sum_congr rfl fun j _ => ?_
  have el : lidx_main_v23 (ix5 b h n r d) j = ix5 b h n r j := funext fun a => Fin.ext (by
    match a with | ⟨0, _⟩ => rfl | ⟨1, _⟩ => rfl | ⟨2, _⟩ => rfl | ⟨3, _⟩ => rfl | ⟨4, _⟩ => rfl)
  have er : ridx_main_v23 (ix5 b h n r d) j = ix5 b h n j d := funext fun a => Fin.ext (by
    match a with | ⟨0, _⟩ => rfl | ⟨1, _⟩ => rfl | ⟨2, _⟩ => rfl | ⟨3, _⟩ => rfl | ⟨4, _⟩ => rfl)
  rw [el, er, weight_apply, v_apply]

/-! ## Laying the result back out -/

/-- Array index (b, s, e) in the five-axis layout: (b, e / 128, s / 128, s mod 128, e mod 128). -/
theorem idx_back (i : S4x4096x1024.Idx) :
    idx_main_v24 (idx_main_v25 (idx_main_v26 i))
      = ix5 (⟨(i 0).val, (i 0).isLt⟩ : Fin 4) (⟨(i 2).val / 128, by have : (i 2).val < 1024 := (i 2).isLt; omega⟩ : Fin 8)
          (⟨(i 1).val / 128, by have : (i 1).val < 4096 := (i 1).isLt; omega⟩ : Fin 32)
          (⟨(i 1).val % 128, by omega⟩ : Fin 128) (⟨(i 2).val % 128, by omega⟩ : Fin 128) := by
  have h0 : (i 0).val < 4 := (i 0).isLt
  have h1 : (i 1).val < 4096 := (i 1).isLt
  have h2 : (i 2).val < 1024 := (i 2).isLt
  have e26 : idx_main_v26 i = ix4 (⟨(i 0).val, h0⟩ : Fin 4) (⟨(i 1).val, h1⟩ : Fin 4096) (⟨(i 2).val / 128, by omega⟩ : Fin 8) (⟨(i 2).val % 128, by omega⟩ : Fin 128) := by
    funext a; apply Fin.ext
    match a with
    | ⟨0, _⟩ => show (((i 0).val * 4096 + (i 1).val) * 1024 + (i 2).val) / 4194304 = (i 0).val; omega
    | ⟨1, _⟩ => show (((i 0).val * 4096 + (i 1).val) * 1024 + (i 2).val) / 1024 % 4096 = (i 1).val; omega
    | ⟨2, _⟩ => show (((i 0).val * 4096 + (i 1).val) * 1024 + (i 2).val) / 128 % 8 = (i 2).val / 128; omega
    | ⟨3, _⟩ => show (((i 0).val * 4096 + (i 1).val) * 1024 + (i 2).val) % 128 = (i 2).val % 128; omega
  have e25 : ∀ (b : Fin 4) (s : Fin 4096) (h : Fin 8) (d : Fin 128), idx_main_v25 (ix4 b s h d) = ix4 b h s d := fun b s h d => by
    funext a; apply Fin.ext
    match a with
    | ⟨0, _⟩ => rfl
    | ⟨1, _⟩ => rfl
    | ⟨2, _⟩ => rfl
    | ⟨3, _⟩ => rfl
  have e24 : ∀ (b : Fin 4) (h : Fin 8) (s : Fin 4096) (d : Fin 128),
      idx_main_v24 (ix4 b h s d) = ix5 b h (⟨s.val / 128, by have := s.isLt; omega⟩ : Fin 32) (⟨s.val % 128, by omega⟩ : Fin 128) d := fun b h s d => by
    have := b.isLt; have := h.isLt; have := s.isLt; have := d.isLt
    funext a; apply Fin.ext
    match a with
    | ⟨0, _⟩ => show (((b.val * 8 + h.val) * 4096 + s.val) * 128 + d.val) / 4194304 = b.val; omega
    | ⟨1, _⟩ => show (((b.val * 8 + h.val) * 4096 + s.val) * 128 + d.val) / 524288 % 8 = h.val; omega
    | ⟨2, _⟩ => show (((b.val * 8 + h.val) * 4096 + s.val) * 128 + d.val) / 16384 % 32 = s.val / 128; omega
    | ⟨3, _⟩ => show (((b.val * 8 + h.val) * 4096 + s.val) * 128 + d.val) / 128 % 128 = s.val % 128; omega
    | ⟨4, _⟩ => show (((b.val * 8 + h.val) * 4096 + s.val) * 128 + d.val) % 128 = d.val; omega
  rw [e26, e25, e24]

/-- THE REFERENCE'S RESULT is the attention of its arguments. -/
theorem result_eq : val_main_v26 (F := Ideal) Q K V = G Q K V := by
  funext i
  rw [val_main_v26_apply, val_main_v25_apply, val_main_v24_apply, idx_back, out_apply]
  rfl

end Cert.ReferenceIdeal.RefValue

end
-- ==== Proof.lean ====
/-
  Block-diagonal attention, the kernel against its reference.

  Both programs compute, for the [4, 4096, 1024] query, key and value arrays, the attention in which position s of
  head h attends only to the 128 positions of its own block: entry (b, s, e) of the result is the block attention of
  the three 128 × 128 blocks (rows 128·(s / 128) …, features 128·(e / 128) …) at (s mod 128, e mod 128)
  (Proof/AttnSpec.lean, Proof/WholeSpec.lean: scaled scores, row maximum from −∞, shifted exponentials, their row
  sum, the quotient, the weighted sum of values).

  The kernel cuts the arrays into sixteen [1, 1024, 1024] blocks (batch element × 1024 positions), and in each block
  treats the eight heads in turn, each head's 1024 rows as eight blocks of 128: Proof/TileOps.lean reads one head's
  operations at an index, Proof/HeadValue.lean one head, Proof/BlockValue.lean the whole output block (its eight
  stores), Proof/KernelValue.lean the whole array. The reference re-lays the arrays out as [4, 8, 32, 128, 128] and
  computes all blocks at once: Proof/RefValue.lean reads it stage by stage. The two meet in one function of the
  arguments, and no law beyond the order of sums and maxima is used, so the precondition is never opened.
  The idealized kernel is the kernel's own text read at the ideal values (no operation was rewritten), so `preserves`
  is trivial; the three frames are the generated ones.
-/
import proofs.«153206_j67757404062393_2_alg».proof.Defs
import proofs.«153206_j67757404062393_2_alg».proof.Proof.Gen.Kernel
import proofs.«153206_j67757404062393_2_alg».proof.Proof.Gen.Kernel.Skeleton
import proofs.«153206_j67757404062393_2_alg».proof.Proof.Gen.Kernel.Launch
import proofs.«153206_j67757404062393_2_alg».proof.Proof.Gen.Kernel.Points
import proofs.«153206_j67757404062393_2_alg».proof.Proof.Gen.Kernel.Frame
import proofs.«153206_j67757404062393_2_alg».proof.Proof.Gen.KernelIdeal
import proofs.«153206_j67757404062393_2_alg».proof.Proof.Gen.KernelIdeal.Skeleton
import proofs.«153206_j67757404062393_2_alg».proof.Proof.Gen.KernelIdeal.Launch
import proofs.«153206_j67757404062393_2_alg».proof.Proof.Gen.KernelIdeal.Points
import proofs.«153206_j67757404062393_2_alg».proof.Proof.Gen.KernelIdeal.Frame
import proofs.«153206_j67757404062393_2_alg».proof.Proof.Gen.ReferenceIdeal
import proofs.«153206_j67757404062393_2_alg».proof.Proof.Gen.Pre_finite_inputs
import proofs.«153206_j67757404062393_2_alg».proof.Proof.Gen.KernelIdeal.Value
import proofs.«153206_j67757404062393_2_alg».proof.Proof.Gen.ReferenceIdeal.Run
import proofs.«153206_j67757404062393_2_alg».proof.Proof.Gen.ReferenceIdeal.Read
import proofs.«153206_j67757404062393_2_alg».proof.Proof.KernelValue
import proofs.«153206_j67757404062393_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, the kernel's result array and the reference's both end at the
    block-diagonal attention of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
